-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x128 .f32) (main_arg6 : FVec F S2x128 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S2x128 .f32) (main_arg6 : FVec F S2x128 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S128x2 : Shape := ⟨2, ![128, 2]⟩
abbrev S50000x2 : Shape := ⟨2, ![50000, 2]⟩

abbrev nBuf : Space → Nat
  | .hbm => 71
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S128x2, .f32⟩
  | .hbm, ⟨59, _⟩ => ⟨S128x2, .f32⟩
  | .hbm, ⟨60, _⟩ => ⟨S_, .i32⟩
  | .hbm, ⟨61, _⟩ => ⟨S_, .f32⟩
  | .hbm, ⟨62, _⟩ => ⟨S128x128, .f32⟩
  | .hbm, ⟨63, _⟩ => ⟨S_, .i32⟩
  | .hbm, ⟨64, _⟩ => ⟨S_, .f32⟩
  | .hbm, ⟨65, _⟩ => ⟨S128x128, .f32⟩
  | .hbm, ⟨66, _⟩ => ⟨S_, .i32⟩
  | .hbm, ⟨67, _⟩ => ⟨S_, .f32⟩
  | .hbm, ⟨68, _⟩ => ⟨S128, .f32⟩
  | .hbm, ⟨69, _⟩ => ⟨S50000x128, .f32⟩
  | .hbm, ⟨70, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_call0_v0 : Ref sig .tc := ⟨.hbm, 61, rfl⟩
abbrev main_v42 : Ref sig .tc := ⟨.hbm, 62, rfl⟩
abbrev main_c_9 : Ref sig .tc := ⟨.hbm, 63, rfl⟩
abbrev main_call1_v0 : Ref sig .tc := ⟨.hbm, 64, rfl⟩
abbrev main_v43 : Ref sig .tc := ⟨.hbm, 65, rfl⟩
abbrev main_c_10 : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S2x128_S128x2_1_0 : S2x128.Transposes [1, 0] S128x2
  pads_S128x2_S128x128_000_01260 : S128x2.Pads (![0, 0] : Fin 2 → Nat) ![0, 126] ![0, 0] S128x128
  h_S_ : 0 < S_.numel
  pads_S2_S128_01260 : S2.Pads (![0] : Fin 1 → Nat) ![126] ![0] S128
  shapeCasts_S128_S128 : S128.ShapeCasts S128
  slices_S50000x128_S50000x2_0_0 : S50000x128.Slices ![0, 0] S50000x2
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x2, .f32⟩
  | .hbm, ⟨74, _⟩ => ⟨S50000x2, .f32⟩
  | .hbm, ⟨75, _⟩ => ⟨S128x2, .f32⟩
  | .hbm, ⟨76, _⟩ => ⟨S50000x2, .f32⟩
  | .hbm, ⟨77, _⟩ => ⟨S50000x2, .f32⟩
  | .hbm, ⟨78, _⟩ => ⟨S1x2, .f32⟩
  | .hbm, ⟨79, _⟩ => ⟨S50000x2, .f32⟩
  | .hbm, ⟨80, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The whole run of the idealized kernel program, with its result named.

  The program is ten segments: a stretch of host operations, the first layer's grid, six stretches of host operations,
  the second layer's grid, and the final slice. From any launch memory every weakly fair execution terminates without
  a fault, and in the final state every unscoped buffer of the TensorCore holds the contents obtained by folding the
  segments over the launch memory: a host stretch applies its operations, a grid leaves in each of its arrays what its
  write-backs leave and every other buffer as it found it. So the result buffer ends at that fold read at the result
  buffer, and the eight arguments end as launched.
-/
import proofs.«134495_j38250978738252_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the fold of the
    ten segments over the launch memory, read at the result buffer, and the arguments end as launched. -/
theorem run : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Whole

end
-- ==== Proof.KernelHost.lean ====
/-
  The host operations of the kernel program, stretch by stretch, as functions of the buffers they start from.

  The program's host side is three stretches. Before the first grid: the two rows of the edge array (sources and
  destinations), the reciprocal of "number of edges into a node, at least one" as a column, the sum over incoming edges of
  the source's feature row scaled by that reciprocal, and the two first-layer weight matrices transposed. Between the
  grids: the same aggregation applied to the first layer's result, and the second layer's weights transposed and
  padded with 126 more columns, its bias with 126 more entries. After the second grid: the first two columns of
  its result. Each lemma says what one buffer holds after a stretch, whatever the buffers held before it.
-/
import proofs.«134495_j38250978738252_1_alg».proof.Proof.Gen.KernelIdeal.Launch
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-! ## The arrays the host side computes -/

/-- Row 0 of the edge array: each edge's source node. -/
def edgeSrc (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array: each edge's destination node. -/
def edgeDst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: a negative source counted from the end, one index word per edge. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's index column: one destination word per edge. -/
def dstCol (d : (⟨S800000, .i32⟩ : BufTy).Contents (Elt F)) : (⟨S800000x1, .i32⟩ : BufTy).Contents (Elt F) :=
  broadcastInDim S800000x1 ![0] bcast_S800000_S800000x1_0 d

/-- For each node, the sum over its incoming edges of the source node's row of `x`. -/
def aggSum (x : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol d)
    (Host.gather gather_S50000x128_S800000x1_S800000x128_1_0_n_n_0_1_1128 x (srcCol s))

/-- The all-ones vector over the nodes. -/
def onesN : (⟨S50000, .f32⟩ : BufTy).Contents (Elt F) :=
  broadcastInDim S50000 ![] bcast_S_S50000 (constant S_ .f32 0x3F800000#32)

/-- The number of edges into each node: ones added up by destination. -/
def count (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (dstCol d)
    (broadcastInDim S800000 ![] bcast_S_S800000 (constant S_ .f32 0x3F800000#32))

/-- One over "the count, at least one", as a column. -/
def invDen (d : (⟨S800000, .i32⟩ : BufTy).Contents (Elt F)) : (⟨S50000x1, .f32⟩ : BufTy).Contents (Elt F) :=
  broadcastInDim S50000x1 ![0] bcast_S50000_S50000x1_0 (Host.divf onesN (maximumf (count d) onesN))

/-- A column repeated across the 128 features. -/
def scale (v : (⟨S50000x1, .f32⟩ : BufTy).Contents (Elt F)) : (⟨S50000x128, .f32⟩ : BufTy).Contents (Elt F) :=
  broadcastInDim S50000x128 ![0, 1] bcast_S50000x1_S50000x128_0_1 v

/-- A first-layer weight matrix transposed. -/
def tr128 (w : (⟨S128x128, .f32⟩ : BufTy).Contents (Elt F)) : (⟨S128x128, .f32⟩ : BufTy).Contents (Elt F) :=
  transpose S128x128 [1, 0] w transposes_S128x128_S128x128_1_0

/-- The padding value: the integer zero converted. -/
def padVal : (⟨S_, .f32⟩ : BufTy).Contents (Elt F) := sitofp .f32 (constantI S_ 32 0#32)

/-- A second-layer weight matrix transposed and padded from 2 to 128 columns. -/
def padW (w : (⟨S2x128, .f32⟩ : BufTy).Contents (Elt F)) : (⟨S128x128, .f32⟩ : BufTy).Contents (Elt F) :=
  pad S128x128 ![0, 0] ![0, 126] ![0, 0] (transpose S128x2 [1, 0] w transposes_S2x128_S128x2_1_0) (padVal (F := F))
    pads_S128x2_S128x128_000_01260 h_S_

/-- The second layer's bias padded from 2 to 128 entries. -/
def padB (b : (⟨S2, .f32⟩ : BufTy).Contents (Elt F)) : (⟨S128, .f32⟩ : BufTy).Contents (Elt F) :=
  pad S128 ![0] ![126] ![0] b (padVal (F := F)) pads_S2_S128_01260 h_S_

/-- The first two columns of a 128-column array. -/
def firstTwo (y : (⟨S50000x128, .f32⟩ : BufTy).Contents (Elt F)) : (⟨S50000x2, .f32⟩ : BufTy).Contents (Elt F) :=
  extractStridedSlice S50000x2 ![0, 0] y slices_S50000x128_S50000x2_0_0

/-! ## Before the first grid -/

section First
variable (Z : Valuation τ sig (Elt F))

theorem first_src : after hostOps0 Z (Proc.devRef .tc main_v1) = edgeSrc (Z (Proc.devRef .tc main_arg1)) := by
  after_results_simp; rfl
theorem first_dst : after hostOps0 Z (Proc.devRef .tc main_v3) = edgeDst (Z (Proc.devRef .tc main_arg1)) := by
  after_results_simp; rfl
theorem first_inv : after hostOps0 Z (Proc.devRef .tc main_v12) = invDen (edgeDst (Z (Proc.devRef .tc main_arg1))) := by
  after_results_simp; rfl
theorem first_agg : after hostOps0 Z (Proc.devRef .tc main_v24)
    = mulf (aggSum (Z (Proc.devRef .tc main_arg0)) (edgeSrc (Z (Proc.devRef .tc main_arg1))) (edgeDst (Z (Proc.devRef .tc main_arg1))))
        (scale (invDen (edgeDst (Z (Proc.devRef .tc main_arg1))))) := by
  after_results_simp; rfl
theorem first_wl : after hostOps0 Z (Proc.devRef .tc main_v25) = tr128 (Z (Proc.devRef .tc main_arg2)) := by
  after_results_simp; rfl
theorem first_wr : after hostOps0 Z (Proc.devRef .tc main_v26) = tr128 (Z (Proc.devRef .tc main_arg3)) := by
  after_results_simp; rfl
theorem first_arg0 : after hostOps0 Z (Proc.devRef .tc main_arg0) = Z (Proc.devRef .tc main_arg0) := by after_results_simp
theorem first_arg4 : after hostOps0 Z (Proc.devRef .tc main_arg4) = Z (Proc.devRef .tc main_arg4) := by after_results_simp
theorem first_arg5 : after hostOps0 Z (Proc.devRef .tc main_arg5) = Z (Proc.devRef .tc main_arg5) := by after_results_simp
theorem first_arg6 : after hostOps0 Z (Proc.devRef .tc main_arg6) = Z (Proc.devRef .tc main_arg6) := by after_results_simp
theorem first_arg7 : after hostOps0 Z (Proc.devRef .tc main_arg7) = Z (Proc.devRef .tc main_arg7) := by after_results_simp

end First

/-! ## Between the grids -/

/-- The six stretches between the two grids, in order. -/
abbrev between (Z : Valuation τ sig (Elt F)) : Valuation τ sig (Elt F) :=
  after hostOps1_5 (after hostOps1_4 (after hostOps1_3 (after hostOps1_2 (after hostOps1_1 (after hostOps1 Z)))))

section Between
variable (Z : Valuation τ sig (Elt F))

theorem between_agg : between Z (Proc.devRef .tc main_v39)
    = mulf (aggSum (Z (Proc.devRef .tc main_v27)) (Z (Proc.devRef .tc main_v1)) (Z (Proc.devRef .tc main_v3)))
        (scale (Z (Proc.devRef .tc main_v12))) := by
  after_results_simp; rfl
theorem between_h : between Z (Proc.devRef .tc main_v27) = Z (Proc.devRef .tc main_v27) := by after_results_simp
theorem between_wl : between Z (Proc.devRef .tc main_v42) = padW (Z (Proc.devRef .tc main_arg5)) := by
  after_results_simp; rfl
theorem between_wr : between Z (Proc.devRef .tc main_v43) = padW (Z (Proc.devRef .tc main_arg6)) := by
  after_results_simp; rfl
theorem between_b : between Z (Proc.devRef .tc main_v44) = padB (Z (Proc.devRef .tc main_arg7)) := by
  after_results_simp; rfl

end Between

/-! ## After the second grid -/

theorem last_out (Z : Valuation τ sig (Elt F)) :
    after hostOps2 Z (Proc.devRef .tc main_v46) = firstTwo (Z (Proc.devRef .tc main_v45)) := by
  after_results_simp; rfl

end Cert.KernelIdeal.Host

end
-- ==== Proof.Layer.lean ====
/-
  One graph-convolution layer's linear part, as a function of whole arrays.

  For a matrix A of aggregated neighbour features and a matrix X of the nodes' own features (both N × 128), two
  weight matrices Wl, Wr (128 × 128, already laid out "input feature × output feature") and a bias b (128), the
  entry (n, j) of the layer is

      (∑ k, A(n, k) · Wl(k, j)  +  ∑ k, X(n, k) · Wr(k, j))  +  b(j)

  on the extended reals, the two sums and the bias added in this grouping. `lin` is that array; `linRelu` is its
  pointwise maximum with the value of the all-zero single-precision word.
-/
import Idealize.ShloMosaic.PureOps.Ideal
import Idealize.ShloMosaic.Lib.ValueIdx

noncomputable section

open scoped BigOperators

namespace Cert.Sage

open Idealize.ShloMosaic Idealize.ShloMosaic.ValueIdx

/-- Node features: 50000 nodes by 128 features. -/
abbrev SND : Shape := ⟨2, ![50000, 128]⟩
/-- A weight matrix, input feature by output feature. -/
abbrev SDD : Shape := ⟨2, ![128, 128]⟩
/-- A bias, one entry per output feature. -/
abbrev SD : Shape := ⟨1, ![128]⟩

/-- The layer's linear part at node `n` and output feature `j`. -/
def linAt (A X : SND.Idx → EReal) (Wl Wr : SDD.Idx → EReal) (b : SD.Idx → EReal) (n : Fin 50000) (j : Fin 128) : EReal :=
  (∑ k : Fin 128, A (ix2 n k) * Wl (ix2 k j) + ∑ k : Fin 128, X (ix2 n k) * Wr (ix2 k j)) + b (ix1 j)

/-- The layer's linear part as an array. -/
def lin (A X : SND.Idx → EReal) (Wl Wr : SDD.Idx → EReal) (b : SD.Idx → EReal) : SND.Idx → EReal :=
  fun i => linAt A X Wl Wr b (i 0) (i 1)

/-- The layer followed by the rectifier: the maximum with the value of the zero word. -/
def linRelu (A X : SND.Idx → EReal) (Wl Wr : SDD.Idx → EReal) (b : SD.Idx → EReal) : SND.Idx → EReal :=
  fun i => max (linAt A X Wl Wr b (i 0) (i 1)) (Ideal.ofBits .f32 0x00000000#32)

theorem lin_apply (A X : SND.Idx → EReal) (Wl Wr : SDD.Idx → EReal) (b : SD.Idx → EReal) (n : Fin 50000) (j : Fin 128) :
    lin A X Wl Wr b (ix2 n j) = linAt A X Wl Wr b n j := rfl

theorem linRelu_apply (A X : SND.Idx → EReal) (Wl Wr : SDD.Idx → EReal) (b : SD.Idx → EReal) (n : Fin 50000) (j : Fin 128) :
    linRelu A X Wl Wr b (ix2 n j) = max (linAt A X Wl Wr b n j) (Ideal.ofBits .f32 0x00000000#32) := rfl

end Cert.Sage

end
-- ==== Proof.KernelValue.lean ====
/-
  The kernel program's result as one function of its eight arguments, at the ideal values.

  Write x0 for the node features, x1 for the edge array, x2 x3 x4 for the first layer's two weight matrices and bias,
  x5 x6 x7 for the second layer's. With agg(y) the sum over incoming edges of the source's row of y, scaled by one over
  "number of incoming edges, at least one", the first grid leaves

      hidden = max((agg(x0) · x2ᵀ + x0 · x3ᵀ) + x4, 0)

  and the second grid, on weights and bias padded to 128 columns,

      outPadded = (agg(hidden) · pad(x5ᵀ) + hidden · pad(x6ᵀ)) + pad(x7),

  of which the program returns the first two columns. The folds of the host stretches are read by the lemmas on
  the host side; what each grid leaves in its result array is taken as a hypothesis here (it is proved with each
  grid's body) and the fold through both grids is then a chain of rewrites.
-/
import proofs.«134495_j38250978738252_1_alg».proof.Proof.Gen.KernelIdeal.Frame
import proofs.«134495_j38250978738252_1_alg».proof.Proof.KernelHost
import proofs.«134495_j38250978738252_1_alg».proof.Proof.Layer

set_option maxRecDepth 16384

noncomputable section

namespace Cert.KernelIdeal.Whole

open Cert.KernelIdeal Cert.KernelIdeal.Gen Cert.KernelIdeal.Host
open Idealize.ShloMosaic Idealize.ShloMosaic.TcCoe Idealize.SL.Sem Idealize.ShloMosaic.StableHlo

/-- The aggregation of `y` along the edges `e`, scaled by one over the in-degree (at least one). -/
def meanAgg (y : (⟨S50000x128, .f32⟩ : BufTy).Contents (Elt Ideal)) (e : (⟨S2x800000, .i32⟩ : BufTy).Contents (Elt Ideal)) :
    (⟨S50000x128, .f32⟩ : BufTy).Contents (Elt Ideal) :=
  mulf (aggSum y (edgeSrc e) (edgeDst e)) (scale (invDen (edgeDst e)))

/-- The first layer's result. -/
def hidden (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    (⟨S50000x128, .f32⟩ : BufTy).Contents (Elt Ideal) :=
  Cert.Sage.linRelu (meanAgg x0 x1) x0 (tr128 x2) (tr128 x3) x4

/-- The second layer's result on the padded weights: 128 columns, of which the first two are the result. -/
def outPadded (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S2x128, .f32⟩ : BufTy).Contents (Elt Ideal)) (x7 : (⟨S2, .f32⟩ : BufTy).Contents (Elt Ideal)) :
    (⟨S50000x128, .f32⟩ : BufTy).Contents (Elt Ideal) :=
  Cert.Sage.lin (meanAgg (hidden x0 x1 x2 x3 x4) x1) (hidden x0 x1 x2 x3 x4) (padW x5) (padW x6) (padB x7)

/-- The program's result. -/
def result (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S2x128, .f32⟩ : BufTy).Contents (Elt Ideal)) (x7 : (⟨S2, .f32⟩ : BufTy).Contents (Elt Ideal)) :
    (⟨S50000x2, .f32⟩ : BufTy).Contents (Elt Ideal) :=
  firstTwo (outPadded x0 x1 x2 x3 x4 x5 x6 x7)

variable (m : (ℓ : Loc nD τ sig) → Buf (Elt Ideal) ℓ) (ρ : Dev nD → PrngReg)

/-- The fold of the ten segments over the launch memory, read at the result buffer, is `result` of the arguments,
    given what each grid leaves in its result array. -/
theorem fold_result
    (h0 : ∀ (V : (c : Dev nD) → (b : Ref sig .tc) → Buf (Elt Ideal) ((c : Thread nD τ).loc b)) (c : Dev nD),
      (dat0 (F := Ideal) V c).arrAt 5 cfg0.N
        = Cert.Sage.linRelu (V c main_v24) (V c main_arg0) (V c main_v25) (V c main_v26) (V c main_arg4))
    (h1 : ∀ (V : (c : Dev nD) → (b : Ref sig .tc) → Buf (Elt Ideal) ((c : Thread nD τ).loc b)) (c : Dev nD),
      (dat1 (F := Ideal) V c).arrAt 5 cfg1.N
        = Cert.Sage.lin (V c main_v39) (V c main_v27) (V c main_v42) (V c main_v43) (V c main_v44))
    (c : Dev nD) :
    W10 m ρ c (Proc.devRef .tc main_v46)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  -- the first layer's result array after the first grid
  have hH : W2 m ρ c (Proc.devRef .tc main_v27)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
    refine (W2_arr m ρ c 5).trans ?_
    rw [h0 (V1 m ρ) c]
    show Cert.Sage.linRelu (after hostOps0 (W0 m ρ c) (Proc.devRef .tc main_v24)) (after hostOps0 (W0 m ρ c) (Proc.devRef .tc main_arg0))
      (after hostOps0 (W0 m ρ c) (Proc.devRef .tc main_v25)) (after hostOps0 (W0 m ρ c) (Proc.devRef .tc main_v26))
      (after hostOps0 (W0 m ρ c) (Proc.devRef .tc main_arg4)) = _
    rw [first_agg, first_arg0, first_wl, first_wr, first_arg4]
    rfl
  -- the buffers of the first stretch that the second stretch reads again: the first grid leaves them alone
  have hS : W2 m ρ c (Proc.devRef .tc main_v1) = edgeSrc (m ((c : Thread nD τ).loc main_arg1)) :=
    (W2_of_ne m ρ c main_v1 (by decide)).trans (first_src (W0 m ρ c))
  have hD : W2 m ρ c (Proc.devRef .tc main_v3) = edgeDst (m ((c : Thread nD τ).loc main_arg1)) :=
    (W2_of_ne m ρ c main_v3 (by decide)).trans (first_dst (W0 m ρ c))
  have hI : W2 m ρ c (Proc.devRef .tc main_v12) = invDen (edgeDst (m ((c : Thread nD τ).loc main_arg1))) :=
    (W2_of_ne m ρ c main_v12 (by decide)).trans (first_inv (W0 m ρ c))
  have h5 : W2 m ρ c (Proc.devRef .tc main_arg5) = m ((c : Thread nD τ).loc main_arg5) :=
    (W2_of_ne m ρ c main_arg5 (by decide)).trans (first_arg5 (W0 m ρ c))
  have h6 : W2 m ρ c (Proc.devRef .tc main_arg6) = m ((c : Thread nD τ).loc main_arg6) :=
    (W2_of_ne m ρ c main_arg6 (by decide)).trans (first_arg6 (W0 m ρ c))
  have h7 : W2 m ρ c (Proc.devRef .tc main_arg7) = m ((c : Thread nD τ).loc main_arg7) :=
    (W2_of_ne m ρ c main_arg7 (by decide)).trans (first_arg7 (W0 m ρ c))
  -- the second layer's result array after the second grid
  have hO : W9 m ρ c (Proc.devRef .tc main_v45)
      = outPadded (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
    refine (W9_arr m ρ c 5).trans ?_
    rw [h1 (V8 m ρ) c]
    show Cert.Sage.lin (between (W2 m ρ c) (Proc.devRef .tc main_v39)) (between (W2 m ρ c) (Proc.devRef .tc main_v27))
      (between (W2 m ρ c) (Proc.devRef .tc main_v42)) (between (W2 m ρ c) (Proc.devRef .tc main_v43))
      (between (W2 m ρ c) (Proc.devRef .tc main_v44)) = _
    rw [between_agg, between_h, between_wl, between_wr, between_b, hH, hS, hD, hI, h5, h6, h7]
    rfl
  show after hostOps2 (W9 m ρ c) (Proc.devRef .tc main_v46) = _
  rw [last_out, hO]
  rfl

end Cert.KernelIdeal.Whole

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Body.lean ====
/-
  The kernel body's arithmetic read at one entry, at the ideal values.

  Both regions run the same body on a block of 5000 rows: with A, X the two row blocks (5000 × 128), Wl, Wr the two
  weight matrices (128 × 128) and b the bias (128), entry (p, q) of the stored block is

      (∑ k, A(p, k) · Wl(k, q)  +  ∑ k, X(p, k) · Wr(k, q))  +  b(q)

  — a change of float format is the identity on the extended reals, each matrix-unit product into the zero splat is the
  plain sum over the contracted coordinate, and the bias row is repeated along the rows — and the first region then
  takes the maximum with the value of the all-zero single-precision word.
-/
import proofs.«134495_j38250978738252_1_alg».proof.Proof.Gen.KernelIdeal.Skeleton
import proofs.«134495_j38250978738252_1_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 5000 × 128 by 128 × 128 matrix-unit product accumulated into the zero splat, read at entry (p, q): the sum over
    the contracted coordinate. -/
theorem prod_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  Cert.LibPlainProduct.matmul_zero_plain_apply (M := 5000) (K := 128) (N := 128)
    dot_S5000x128_S128x128_S5000x128_1_0_0_1_n_n_wf none A B p q

/-- The bias as a one-row matrix repeated along the 5000 rows, read at entry (p, q): the bias at q. -/
theorem bias_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply (a := 5000) (b := 128) (shapeCast S1x128 b shapeCasts_S128_S1x128) broadcasts_S1x128_S5000x128 p q).trans
    (shapeCast_a_1a_apply (a := 128) b shapeCasts_S128_S1x128 (0 : Fin 1) q)

/-- The first region's stored block at entry (p, q). -/
theorem pay0_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q))
          (Ideal.ofBits .f32 0x00000000#32) := by
  unfold k0_pay1
  simp only [maximumf_apply, addf_apply, broadcast_apply]
  rw [prod_apply, prod_apply, bias_apply]
  simp only [truncf_apply, shapeCast_self]
  rfl

/-- The second region's stored block at entry (p, q). -/
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q)) + x4 (ix1 q) := by
  unfold k1_pay1
  simp only [addf_apply]
  rw [prod_apply, prod_apply, shapeCast_self x4, bias_apply]
  simp only [truncf_apply, shapeCast_self]

end Cert.KernelIdeal.Body

end
-- ==== Proof.Region0.lean ====
/-
  The first region's output array as one function of the arrays its input windows read.

  The grid has 10 points; point t owns rows 5000·t … 5000·t + 4999 of the two row-blocked inputs and of the output, and
  reads both weight matrices and the bias whole. An entry of a block sits in its array at block index × block size +
  its coordinate inside the block, so what point t writes back is block t of the layer's array (the linear part followed
  by the maximum with the zero word's value); row r is covered by point r / 5000, so the ten blocks fill the array.
-/
import proofs.«134495_j38250978738252_1_alg».proof.Proof.Gen.KernelIdeal.Frame
import proofs.«134495_j38250978738252_1_alg».proof.Proof.Body
import proofs.«134495_j38250978738252_1_alg».proof.Proof.Layer
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked windows are at block (t, 0), the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each input block read where it sits in its array -/

/-- Window 0's block at point t is rows 5000·t … of the first row-blocked input. -/
theorem blk0_apply (c : Dev nD) (t : Fin cfg0.N) (p : Fin 5000) (k : Fin 128) (n : Fin 50000)
    (hn : n.val = t.val * 5000 + p.val) :
    (iblk0 V c 0 t : Vec Ideal S5000x128 .f32) (ix2 p k) = (V c main_v24 : S50000x128.Idx → EReal) (ix2 n k) := by
  obtain ⟨e0, e1, -⟩ := idx_facts t
  unfold iblk0
  rw [View.read_apply]
  show (V c main_v24 : S50000x128.Idx → EReal) _ = V c main_v24 _
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- Window 1's block at point t is rows 5000·t … of the second row-blocked input. -/
theorem blk1_apply (c : Dev nD) (t : Fin cfg0.N) (p : Fin 5000) (k : Fin 128) (n : Fin 50000)
    (hn : n.val = t.val * 5000 + p.val) :
    (iblk0 V c 1 t : Vec Ideal S5000x128 .f32) (ix2 p k) = (V c main_arg0 : S50000x128.Idx → EReal) (ix2 n k) := by
  obtain ⟨-, -, e0, e1, -⟩ := idx_facts t
  unfold iblk0
  rw [View.read_apply]
  show (V c main_arg0 : S50000x128.Idx → EReal) _ = V c main_arg0 _
  refine congrArg _ (funext fun a => Fin.ext ?_)
  match a with
  | ⟨0, _⟩ => show win0_1.index t (0 : Fin 2) * 5000 + 1 * p.val = n.val; omega
  | ⟨1, _⟩ => show win0_1.index t (1 : Fin 2) * 128 + 1 * k.val = k.val; omega

/-- Window 2's block at every point is the whole first weight matrix. -/
theorem blk2_apply (c : Dev nD) (t : Fin cfg0.N) (k q : Fin 128) :
    (iblk0 V c 2 t : Vec Ideal S128x128 .f32) (ix2 k q) = (V c main_v25 : S128x128.Idx → EReal) (ix2 k q) := by
  obtain ⟨-, -, -, -, e0, e1, -⟩ := idx_facts t
  unfold iblk0
  rw [View.read_apply]
  show (V c main_v25 : S128x128.Idx → EReal) _ = V c main_v25 _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 3's block at every point is the whole second weight matrix. -/
theorem blk3_apply (c : Dev nD) (t : Fin cfg0.N) (k q : Fin 128) :
    (iblk0 V c 3 t : Vec Ideal S128x128 .f32) (ix2 k q) = (V c main_v26 : S128x128.Idx → EReal) (ix2 k q) := by
  obtain ⟨-, -, -, -, -, -, e0, e1, -⟩ := idx_facts t
  unfold iblk0
  rw [View.read_apply]
  show (V c main_v26 : S128x128.Idx → EReal) _ = V c main_v26 _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Window 4's block at every point is the whole bias. -/
theorem blk4_apply (c : Dev nD) (t : Fin cfg0.N) (q : Fin 128) :
    (iblk0 V c 4 t : Vec Ideal S128 .f32) (ix1 q) = (V c main_arg4 : S128.Idx → EReal) (ix1 q) := by
  obtain ⟨-, -, -, -, -, -, -, -, e0, -⟩ := idx_facts t
  unfold iblk0
  rw [View.read_apply]
  show (V c main_arg4 : S128.Idx → EReal) _ = V c main_arg4 _
  refine congrArg _ (funext fun a => Fin.ext ?_)
  match a with
  | ⟨0, _⟩ => show win0_4.index t (0 : Fin 1) * 128 + 1 * q.val = q.val; omega

/-! ## What a point stores, entry by entry -/

/-- Entry (p, q) of the block point t stores is the layer's array at row 5000·t + p, column q. -/
theorem stored_apply (c : Dev nD) (t : Fin cfg0.N) (p : Fin 5000) (q : Fin 128) (n : Fin 50000)
    (hn : n.val = t.val * 5000 + p.val) :
    k0_pay1 (F := Ideal) (iblk0 V c 0 t) (iblk0 V c 1 t) (iblk0 V c 2 t) (iblk0 V c 3 t) (iblk0 V c 4 t) (ix2 p q)
      = Cert.Sage.linRelu (V c main_v24) (V c main_arg0) (V c main_v25) (V c main_v26) (V c main_arg4) (ix2 n q) := by
  refine (Body.pay0_apply (iblk0 V c 0 t) (iblk0 V c 1 t) (iblk0 V c 2 t) (iblk0 V c 3 t) (iblk0 V c 4 t) p q).trans ?_
  rw [Cert.Sage.linRelu_apply]
  unfold Cert.Sage.linAt
  rw [blk4_apply V c t q]
  refine congrArg (fun s => max (s + _) _) ?_
  refine congrArg₂ (· + ·) (Finset.sum_congr rfl fun k _ => ?_) (Finset.sum_congr rfl fun k _ => ?_)
  · rw [blk0_apply V c t p k n hn, blk2_apply V c t k q]
  · rw [blk1_apply V c t p k n hn, blk3_apply V c t k q]

/-! ## From blocks to the array -/

/-- What point t writes back is block t of the layer's array. -/
theorem flushed_eq (c : Dev nD) (t : Fin cfg0.N) :
    (dat0 (F := Ideal) V c).flushed 5 t = ((cfg0.win 5).blk t).view.read (Elt Ideal)
      (Cert.Sage.linRelu (V c main_v24) (V c main_arg0) (V c main_v25) (V c main_v26) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨-, -, -, -, -, -, -, -, -, e0, e1⟩ := idx_facts t
  have hN : t.val < 10 := lt_of_lt_of_eq t.isLt (N_0 : cfg0.N = 10)
  funext j
  obtain ⟨p, q, rfl⟩ : ∃ (p : Fin 5000) (q : Fin 128), j = ix2 p q := ⟨j 0, j 1, eq_ix2 j⟩
  have hp : p.val < 5000 := p.isLt
  show k0_pay1 (F := Ideal) (iblk0 V c 0 t) (iblk0 V c 1 t) (iblk0 V c 2 t) (iblk0 V c 3 t) (iblk0 V c 4 t) (ix2 p q)
    = Cert.Sage.linRelu (V c main_v24) (V c main_arg0) (V c main_v25) (V c main_v26) (V c main_arg4)
        (((cfg0.win 5).blk t).view.emb (ix2 p q))
  refine (stored_apply V c t p q ⟨t.val * 5000 + p.val, by omega⟩ rfl).trans ?_
  refine congrArg _ (funext fun a => Fin.ext ?_)
  match a with
  | ⟨0, _⟩ => show t.val * 5000 + p.val = win0_5.index t (0 : Fin 2) * 5000 + 1 * p.val; omega
  | ⟨1, _⟩ => show q.val = win0_5.index t (1 : Fin 2) * 128 + 1 * q.val; omega

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Every index of the array is in the block of the point that owns its row: row r belongs to point r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region's output array after the region is the layer's array (linear part, then the maximum with the zero
    word's value) of the five arrays its input windows read. -/
theorem final (V : (c : Dev nD) → (b : Ref sig .tc) → Buf (Elt Ideal) ((c : Thread nD τ).loc b)) (c : Dev nD) :
    (dat0 (F := Ideal) V c).arrAt 5 cfg0.N
      = Cert.Sage.linRelu (V c main_v24) (V c main_arg0) (V c main_v25) (V c main_v26) (V c main_arg4) :=
  (dat0 (F := Ideal) V c).arrAt_eq_of_cover 5 _ (fun t _ => flushed_eq V c t) cover

end Cert.KernelIdeal.Region0

end
-- ==== Proof.Region1.lean ====
/-
  The second region's output array as one function of the arrays its input windows read.

  The grid has 10 points; point t owns rows 5000·t … 5000·t + 4999 of the two row-blocked inputs and of the output, and
  reads both weight matrices and the bias whole. An entry of a block sits in its array at block index × block size +
  its coordinate inside the block, so what point t writes back is block t of the layer's array (the linear part alone:
  this region takes no maximum); row r is covered by point r / 5000, so the ten blocks fill the array.
-/
import proofs.«134495_j38250978738252_1_alg».proof.Proof.Gen.KernelIdeal.Frame
import proofs.«134495_j38250978738252_1_alg».proof.Proof.Body
import proofs.«134495_j38250978738252_1_alg».proof.Proof.Layer
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked windows are at block (t, 0), the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## Each input block read where it sits in its array -/

/-- Window 0's block at point t is rows 5000·t … of the first row-blocked input. -/
theorem blk0_apply (c : Dev nD) (t : Fin cfg1.N) (p : Fin 5000) (k : Fin 128) (n : Fin 50000)
    (hn : n.val = t.val * 5000 + p.val) :
    (iblk1 V c 0 t : Vec Ideal S5000x128 .f32) (ix2 p k) = (V c main_v39 : S50000x128.Idx → EReal) (ix2 n k) := by
  obtain ⟨e0, e1, -⟩ := idx_facts t
  unfold iblk1
  rw [View.read_apply]
  show (V c main_v39 : S50000x128.Idx → EReal) _ = V c main_v39 _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Window 1's block at point t is rows 5000·t … of the second row-blocked input. -/
theorem blk1_apply (c : Dev nD) (t : Fin cfg1.N) (p : Fin 5000) (k : Fin 128) (n : Fin 50000)
    (hn : n.val = t.val * 5000 + p.val) :
    (iblk1 V c 1 t : Vec Ideal S5000x128 .f32) (ix2 p k) = (V c main_v27 : S50000x128.Idx → EReal) (ix2 n k) := by
  obtain ⟨-, -, e0, e1, -⟩ := idx_facts t
  unfold iblk1
  rw [View.read_apply]
  show (V c main_v27 : S50000x128.Idx → EReal) _ = V c main_v27 _
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- Window 2's block at every point is the whole first weight matrix. -/
theorem blk2_apply (c : Dev nD) (t : Fin cfg1.N) (k q : Fin 128) :
    (iblk1 V c 2 t : Vec Ideal S128x128 .f32) (ix2 k q) = (V c main_v42 : S128x128.Idx → EReal) (ix2 k q) := by
  obtain ⟨-, -, -, -, e0, e1, -⟩ := idx_facts t
  unfold iblk1
  rw [View.read_apply]
  show (V c main_v42 : S128x128.Idx → EReal) _ = V c main_v42 _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Window 3's block at every point is the whole second weight matrix. -/
theorem blk3_apply (c : Dev nD) (t : Fin cfg1.N) (k q : Fin 128) :
    (iblk1 V c 3 t : Vec Ideal S128x128 .f32) (ix2 k q) = (V c main_v43 : S128x128.Idx → EReal) (ix2 k q) := by
  obtain ⟨-, -, -, -, -, -, e0, e1, -⟩ := idx_facts t
  unfold iblk1
  rw [View.read_apply]
  show (V c main_v43 : S128x128.Idx → EReal) _ = V c main_v43 _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Window 4's block at every point is the whole bias. -/
theorem blk4_apply (c : Dev nD) (t : Fin cfg1.N) (q : Fin 128) :
    (iblk1 V c 4 t : Vec Ideal S128 .f32) (ix1 q) = (V c main_v44 : S128.Idx → EReal) (ix1 q) := by
  obtain ⟨-, -, -, -, -, -, -, -, e0, -⟩ := idx_facts t
  unfold iblk1
  rw [View.read_apply]
  show (V c main_v44 : S128.Idx → EReal) _ = V c main_v44 _
  refine congrArg _ (funext fun a => Fin.ext ?_)
  match a with
  | ⟨0, _⟩ => show win1_4.index t (0 : Fin 1) * 128 + 1 * q.val = q.val; omega

/-! ## What a point stores, entry by entry -/

/-- Entry (p, q) of the block point t stores is the layer's array at row 5000·t + p, column q. -/
theorem stored_apply (c : Dev nD) (t : Fin cfg1.N) (p : Fin 5000) (q : Fin 128) (n : Fin 50000)
    (hn : n.val = t.val * 5000 + p.val) :
    k1_pay1 (F := Ideal) (iblk1 V c 0 t) (iblk1 V c 1 t) (iblk1 V c 2 t) (iblk1 V c 3 t) (iblk1 V c 4 t) (ix2 p q)
      = Cert.Sage.lin (V c main_v39) (V c main_v27) (V c main_v42) (V c main_v43) (V c main_v44) (ix2 n q) := by
  refine (Body.pay1_apply (iblk1 V c 0 t) (iblk1 V c 1 t) (iblk1 V c 2 t) (iblk1 V c 3 t) (iblk1 V c 4 t) p q).trans ?_
  rw [Cert.Sage.lin_apply]
  unfold Cert.Sage.linAt
  rw [blk4_apply V c t q]
  refine congrArg (fun s => s + _) ?_
  refine congrArg₂ (· + ·) (Finset.sum_congr rfl fun k _ => ?_) (Finset.sum_congr rfl fun k _ => ?_)
  · rw [blk0_apply V c t p k n hn, blk2_apply V c t k q]
  · rw [blk1_apply V c t p k n hn, blk3_apply V c t k q]

/-! ## From blocks to the array -/

/-- What point t writes back is block t of the layer's array. -/
theorem flushed_eq (c : Dev nD) (t : Fin cfg1.N) :
    (dat1 (F := Ideal) V c).flushed 5 t = ((cfg1.win 5).blk t).view.read (Elt Ideal)
      (Cert.Sage.lin (V c main_v39) (V c main_v27) (V c main_v42) (V c main_v43) (V c main_v44)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨-, -, -, -, -, -, -, -, -, e0, e1⟩ := idx_facts t
  have hN : t.val < 10 := lt_of_lt_of_eq t.isLt (N_1 : cfg1.N = 10)
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (iblk1 V c 2 t) (iblk1 V c 3 t) (iblk1 V c 4 t) (ix2 p q)
    = Cert.Sage.lin (V c main_v39) (V c main_v27) (V c main_v42) (V c main_v43) (V c main_v44)
        (((cfg1.win 5).blk t).view.emb (ix2 p q))
  refine (stored_apply V c t p q ⟨t.val * 5000 + p.val, by omega⟩ rfl).trans ?_
  refine congrArg _ (funext fun a => Fin.ext ?_)
  match a with
  | ⟨0, _⟩ => show t.val * 5000 + p.val = win1_5.index t (0 : Fin 2) * 5000 + 1 * p.val; omega
  | ⟨1, _⟩ => show q.val = win1_5.index t (1 : Fin 2) * 128 + 1 * q.val; omega

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the array is in the block of the point that owns its row: row r belongs to point r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's output array after the region is the layer's array (the linear part) of the five arrays its
    input windows read. -/
theorem final (V : (c : Dev nD) → (b : Ref sig .tc) → Buf (Elt Ideal) ((c : Thread nD τ).loc b)) (c : Dev nD) :
    (dat1 (F := Ideal) V c).arrAt 5 cfg1.N
      = Cert.Sage.lin (V c main_v39) (V c main_v27) (V c main_v42) (V c main_v43) (V c main_v44) :=
  (dat1 (F := Ideal) V c).arrAt_eq_of_cover 5 _ (fun t _ => flushed_eq V c t) cover

end Cert.KernelIdeal.Region1

end
-- ==== Proof.Assemble.lean ====
/-
  The five claims, from the two programs' runs.

  The word-level kernel program and its idealization each run to the end with their arguments unchanged (their frame
  certificates); so does the idealized reference (its run, the result dropped). The idealization rewrote no operation, so
  there is nothing to preserve. For the value claim, at the ideal values and from memories that agree on the eight
  arguments: the kernel program's result buffer ends at the fold of its ten segments, which is ONE function of the
  arguments once each grid's result array is known to be the layer's array of the arrays its windows read; the
  reference's result buffer ends at its operations' composed term of the same arguments; and the two functions are
  equal. That last equation is the one hypothesis of `algebraic` here.
-/
import proofs.«134495_j38250978738252_1_alg».proof.Defs
import proofs.«134495_j38250978738252_1_alg».proof.Proof.Gen.Kernel.Frame
import proofs.«134495_j38250978738252_1_alg».proof.Proof.Gen.KernelIdeal.Frame
import proofs.«134495_j38250978738252_1_alg».proof.Proof.Gen.ReferenceIdeal.Run
import proofs.«134495_j38250978738252_1_alg».proof.Proof.Gen.ReferenceIdeal.Read
import proofs.«134495_j38250978738252_1_alg».proof.Proof.Gen.Pre_finite_inputs
import proofs.«134495_j38250978738252_1_alg».proof.Proof.KernelRun
import proofs.«134495_j38250978738252_1_alg».proof.Proof.KernelValue
import proofs.«134495_j38250978738252_1_alg».proof.Proof.Region0
import proofs.«134495_j38250978738252_1_alg».proof.Proof.Region1

noncomputable section

open Idealize.ShloMosaic Idealize.ShloMosaic.TcCoe Idealize.SL.Sem

namespace Cert.Proof.SageClaims

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The idealization is the program's own text read at the ideal values: no rewrite to account for. -/
theorem preserves : Cert.preserves_Kernel_KernelIdeal := trivial

/-- At the ideal values, from memories agreeing on the arguments, both programs run, leave the arguments unchanged and end
    with equal results — given that the kernel program's result as a function of its arguments is the reference's
    composed term of them (`hB`). -/
theorem algebraic
    (hB : ∀ (x0 : (⟨Cert.KernelIdeal.S50000x128, .f32⟩ : BufTy).Contents (Elt Ideal))
        (x1 : (⟨Cert.KernelIdeal.S2x800000, .i32⟩ : BufTy).Contents (Elt Ideal))
        (x2 x3 : (⟨Cert.KernelIdeal.S128x128, .f32⟩ : BufTy).Contents (Elt Ideal))
        (x4 : (⟨Cert.KernelIdeal.S128, .f32⟩ : BufTy).Contents (Elt Ideal))
        (x5 x6 : (⟨Cert.KernelIdeal.S2x128, .f32⟩ : BufTy).Contents (Elt Ideal))
        (x7 : (⟨Cert.KernelIdeal.S2, .f32⟩ : BufTy).Contents (Elt Ideal)),
        Cert.KernelIdeal.Whole.result x0 x1 x2 x3 x4 x5 x6 x7
          = Cert.ReferenceIdeal.Read.val_main_v58 (F := Ideal) x0 x1 x2 x3 x4 x5 x6 x7) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel program: the fold of its segments, read at the result buffer, is that function of the arguments
    exact (θ_run Cert.KernelIdeal.defs _ _).mono
      (fun _ h c => ⟨(h c).1.trans
        (Cert.KernelIdeal.Whole.fold_result m ρ Cert.KernelIdeal.Region0.final Cert.KernelIdeal.Region1.final c), (h c).2⟩)
      (Cert.KernelIdeal.Whole.run (F := Ideal) m ρ)
  · -- the reference: its composed term of arguments that agree with the kernel program's
    refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v58_eq, a0, a1, a2, a3, a4, a5, a6, a7]
    exact (hB _ _ _ _ _ _ _ _).symm

end Cert.Proof.SageClaims

end
-- ==== Proof.KernelRead.lean ====
/-
  The arrays of the kernel program's host side, read at an index, at the ideal values.

  The all-ones vector is the value of the word for 1.0 everywhere; the scaling array at (n, k) is one over "the count at n,
  at least one" whatever k; a transposed matrix at (k, j) is the matrix at (j, k); the second layer's weight matrix
  transposed and padded to 128 columns, read in one of its first two columns j, is the matrix at (j, k), and its padded
  bias at one of the first two entries is the bias there; the first two columns of an array are read where they were.
-/
import proofs.«134495_j38250978738252_1_alg».proof.Proof.KernelHost
import Idealize.ShloMosaic.Lib.Pipeline.Value
import Idealize.ShloMosaic.Lib.ValueIdx
import Idealize.ShloMosaic.Lib.KernelVsHost

noncomputable section

namespace Cert.KernelIdeal.Host

open Cert.KernelIdeal Cert.KernelIdeal.Gen
open Idealize.ShloMosaic Idealize.ShloMosaic.ValueIdx Idealize.ShloMosaic.TcCoe

/-- The all-ones vector holds the value of the word for 1.0 at every node. -/
theorem onesN_apply (i : S50000.Idx) : onesN (F := Ideal) i = Ideal.ofBits .f32 0x3F800000#32 := by
  unfold onesN
  exact broadcastInDim_apply _ bcast_S_S50000 _ i (fun a => a.elim0) (fun a => a.elim0)

/-- The host's pointwise quotient read at an index. -/
theorem hostDivf_apply {s : Shape} {φ : FTy} (a b : FVec Ideal s φ) (i : s.Idx) : Host.divf a b i = Ideal.div (a i) (b i) := rfl

/-- A column repeated across the features, read at (n, k), is the column at n. -/
theorem scale_apply (v : (⟨S50000x1, .f32⟩ : BufTy).Contents (Elt Ideal)) (n : Fin 50000) (k : Fin 128) :
    scale (F := Ideal) v (ix2 n k) = v (ix2 n ⟨0, Nat.one_pos⟩) := by
  unfold scale
  exact broadcastInDim_apply _ bcast_S50000x1_S50000x128_0_1 v (ix2 n k) (ix2 n ⟨0, Nat.one_pos⟩) (fun a => match a with
    | ⟨0, _⟩ => by show n.val = if (50000 : Nat) = 1 then 0 else n.val; rw [if_neg (by decide)]
    | ⟨1, _⟩ => by show 0 = if (1 : Nat) = 1 then 0 else k.val; rw [if_pos rfl])

/-- A vector over the nodes as a column, read at (n, 0), is the vector at n. -/
theorem column_apply (y : (⟨S50000, .f32⟩ : BufTy).Contents (Elt Ideal)) (n : Fin 50000) :
    broadcastInDim S50000x1 ![0] bcast_S50000_S50000x1_0 y (ix2 n ⟨0, Nat.one_pos⟩) = y (ix1 n) :=
  broadcastInDim_apply _ bcast_S50000_S50000x1_0 y (ix2 n ⟨0, Nat.one_pos⟩) (ix1 n) (fun a => match a with
    | ⟨0, _⟩ => by show n.val = if (50000 : Nat) = 1 then 0 else n.val; rw [if_neg (by decide)])

/-- The scaling array at (n, k): one over "the count at n, at least one". -/
theorem scale_invDen_apply (d : (⟨S800000, .i32⟩ : BufTy).Contents (Elt Ideal)) (n : Fin 50000) (k : Fin 128) :
    scale (invDen (F := Ideal) d) (ix2 n k)
      = Ideal.div (Ideal.ofBits .f32 0x3F800000#32) (max (count (F := Ideal) d (ix1 n)) (Ideal.ofBits .f32 0x3F800000#32)) := by
  rw [scale_apply]
  unfold invDen
  rw [column_apply]
  generalize count (F := Ideal) d = cn
  rw [hostDivf_apply, maximumf_apply, onesN_apply]

/-- A transposed first-layer weight matrix at (k, j) is the matrix at (j, k). -/
theorem tr128_apply (w : (⟨S128x128, .f32⟩ : BufTy).Contents (Elt Ideal)) (k j : Fin 128) :
    tr128 (F := Ideal) w (ix2 k j) = w (ix2 j k) := by
  unfold tr128
  exact transpose_apply [1, 0] w transposes_S128x128_S128x128_1_0 (ix2 k j) (ix2 j k) (fun b => match b with
    | ⟨0, _⟩ => rfl
    | ⟨1, _⟩ => rfl)

/-- The padded transposed second-layer weight matrix, in one of its first two columns j, at row k: the matrix at (j, k). -/
theorem padW_apply (w : (⟨S2x128, .f32⟩ : BufTy).Contents (Elt Ideal)) (k : Fin 128) (j : Fin 2) :
    padW (F := Ideal) w (ix2 k (⟨j.val, by omega⟩ : Fin 128)) = w (ix2 j k) := by
  unfold padW
  refine (pad_apply_of_inside ![0, 0] ![0, 126] ![0, 0] _ _ pads_S128x2_S128x128_000_01260 h_S_
    (ix2 k (⟨j.val, by omega⟩ : Fin 128)) (ix2 k j) (fun a => match a with
      | ⟨0, _⟩ => by show k.val = 0 + k.val * (0 + 1); omega
      | ⟨1, _⟩ => by show j.val = 0 + j.val * (0 + 1); omega)).trans ?_
  exact transpose_apply [1, 0] w transposes_S2x128_S128x2_1_0 (ix2 k j) (ix2 j k) (fun b => match b with
    | ⟨0, _⟩ => rfl
    | ⟨1, _⟩ => rfl)

/-- The padded second-layer bias at one of its first two entries is the bias there. -/
theorem padB_apply (b : (⟨S2, .f32⟩ : BufTy).Contents (Elt Ideal)) (j : Fin 2) :
    padB (F := Ideal) b (ix1 (⟨j.val, by omega⟩ : Fin 128)) = b (ix1 j) := by
  unfold padB
  exact pad_apply_of_inside ![0] ![126] ![0] b _ pads_S2_S128_01260 h_S_
    (ix1 (⟨j.val, by omega⟩ : Fin 128)) (ix1 j) (fun a => match a with
      | ⟨0, _⟩ => by show j.val = 0 + j.val * (0 + 1); omega)

/-- The first two columns of an array, read at (n, j), are the array at (n, j). -/
theorem firstTwo_apply (y : (⟨S50000x128, .f32⟩ : BufTy).Contents (Elt Ideal)) (n : Fin 50000) (j : Fin 2) :
    firstTwo (F := Ideal) y (ix2 n j) = y (ix2 n (⟨j.val, by omega⟩ : Fin 128)) := by
  unfold firstTwo
  exact extractStridedSlice_apply ![0, 0] y slices_S50000x128_S50000x2_0_0 (ix2 n j) (ix2 n (⟨j.val, by omega⟩ : Fin 128))
    (fun a => match a with
      | ⟨0, _⟩ => by show n.val = 0 + n.val; omega
      | ⟨1, _⟩ => by show j.val = 0 + j.val; omega)

end Cert.KernelIdeal.Host

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.RefDen.lean ====
/-
  The divisor of a mean aggregation is a real number that is not zero.

  The in-degree count of node `n` is an additive scatter of the all-ones vector (one entry per edge) into the zero
  vector (one entry per node), addressed by the edges' destination column: at the ideal instance it is
  `0 + ∑ e, [dst e = n] · 1`, a finite sum of ones and zeros, hence a real number `c ≥ 0`. The divisor is
  `max (count, 1) = max c 1 ≥ 1`, a real number that is not zero. The program computes this divisor twice (once per
  layer) with the same text.
-/
import proofs.«134495_j38250978738252_1_alg».proof.Proof.Gen.ReferenceIdeal.Read
import proofs.«134495_j38250978738252_1_alg».proof.Proof.LibScatterAdd
import Idealize.ShloMosaic.Lib.IdealHost

noncomputable section

open scoped BigOperators

namespace Cert.ReferenceIdeal.Hand

open Cert.ReferenceIdeal Cert.ReferenceIdeal.Read Idealize.ShloMosaic Idealize.ShloMosaic.ValueIdx
open Idealize.ShloMosaic.ScatterAddAt

/-- A finite sum of extended reals, each a real number that is not negative, is a real number that is not negative. -/
theorem sum_real_nonneg {ι : Type*} (s : Finset ι) (f : ι → EReal)
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by rw [Finset.sum_empty, EReal.coe_zero]⟩
  | insert a s ha ih =>
    obtain ⟨r1, h1, e1⟩ := hf a (Finset.mem_insert_self a s)
    obtain ⟨r2, h2, e2⟩ := ih fun i hi => hf i (Finset.mem_insert_of_mem hi)
    exact ⟨r1 + r2, add_nonneg h1 h2, by rw [Finset.sum_insert ha, e1, e2, EReal.coe_add]⟩

/-- The larger of a real number that is not negative and one is a real number that is not zero. -/
theorem max_one_real (c : ℝ) (hc : 0 ≤ c) : ∃ r : ℝ, r ≠ 0 ∧ max (c : EReal) 1 = (r : EReal) := by
  rcases le_total c 1 with h | h
  · exact ⟨1, one_ne_zero, by rw [← EReal.coe_one]; exact max_eq_right (EReal.coe_le_coe_iff.2 h)⟩
  · exact ⟨c, fun h0 => by rw [h0] at h; exact absurd h (by norm_num),
      by rw [← EReal.coe_one]; exact max_eq_left (EReal.coe_le_coe_iff.2 h)⟩

/-- COUNT, THEN CLAMP BELOW BY ONE: the additive scatter of an all-ones update vector into a zero vector, then the
    maximum with one, is at every element a real number that is not zero. -/
theorem max_count_real {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (one : (⟨1, ![N]⟩ : Shape).Idx → EReal) (hx : ∀ i, x i = 0) (hupd : ∀ i, upd i = 1) (hone : ∀ i, one i = 1)
    (n : Fin N) :
    ∃ r : ℝ, r ≠ 0 ∧ max (Ideal.hostScatterAdd (vecDims N E wf) x idx upd (ix1 n)) (one (ix1 n)) = (r : EReal) := by
  rw [vecScatterAdd_apply, hx, hone, zero_add]
  obtain ⟨c, hc, ec⟩ := sum_real_nonneg Finset.univ
    (fun e : Fin E => if rowWord idx e = (n.val : Int) then upd (ix1 e) else 0) (fun e _ => by
      by_cases h : rowWord idx e = (n.val : Int)
      · rw [if_pos h, hupd]; exact ⟨1, zero_le_one, EReal.coe_one.symm⟩
      · rw [if_neg h]; exact ⟨0, le_rfl, EReal.coe_zero.symm⟩)
  rw [ec]
  exact max_one_real c hc

variable (x1 : (⟨S2x800000, .i32⟩ : BufTy).Contents (Elt Ideal))

/-- The program's scalar-scatter record is the one the count lemma is stated for. -/
theorem scatter_eq_vecDims : scatter_S50000_S800000x1_S800000_n_0_0_1
    = vecDims 50000 800000 Gen.scatter_S50000_S800000x1_S800000_n_0_0_1_wf := rfl

/-- Layer 1: the count is the additive scatter of the ones into the zeros, addressed by the destination column. -/
theorem val_main_v17_eq : val_main_v17 (F := Ideal) x1
    = Ideal.hostScatterAdd (vecDims 50000 800000 Gen.scatter_S50000_S800000x1_S800000_n_0_0_1_wf)
        (val_main_v15 (F := Ideal)) (val_main_v16 (F := Ideal) x1) (val_main_v14 (F := Ideal)) := by
  unfold val_main_v17 Host.scatterAdd
  rw [Ideal.hostScatterAdd_def, scatter_eq_vecDims]

/-- Layer 2: the same count, computed again. -/
theorem val_main_v45_eq : val_main_v45 (F := Ideal) x1
    = Ideal.hostScatterAdd (vecDims 50000 800000 Gen.scatter_S50000_S800000x1_S800000_n_0_0_1_wf)
        (val_main_v43 (F := Ideal)) (val_main_v44 (F := Ideal) x1) (val_main_v42 (F := Ideal)) := by
  unfold val_main_v45 Host.scatterAdd
  rw [Ideal.hostScatterAdd_def, scatter_eq_vecDims]

theorem val_main_v15_zero (i : S50000.Idx) : val_main_v15 (F := Ideal) i = 0 := by
  rw [val_main_v15_apply, val_main_cst_2_apply, Ideal.ofBits_def, Ideal.ofBits_zero_f32]
theorem val_main_v14_one (i : S800000.Idx) : val_main_v14 (F := Ideal) i = 1 := by
  rw [val_main_v14_apply, val_main_cst_1_apply, Ideal.ofBits_def, Ideal.ofBits_one_f32]
theorem val_main_v18_one (i : S50000.Idx) : val_main_v18 (F := Ideal) i = 1 := by
  rw [val_main_v18_apply, val_main_cst_3_apply, Ideal.ofBits_def, Ideal.ofBits_one_f32]
theorem val_main_v43_zero (i : S50000.Idx) : val_main_v43 (F := Ideal) i = 0 := by
  rw [val_main_v43_apply, val_main_cst_8_apply, Ideal.ofBits_def, Ideal.ofBits_zero_f32]
theorem val_main_v42_one (i : S800000.Idx) : val_main_v42 (F := Ideal) i = 1 := by
  rw [val_main_v42_apply, val_main_cst_7_apply, Ideal.ofBits_def, Ideal.ofBits_one_f32]
theorem val_main_v46_one (i : S50000.Idx) : val_main_v46 (F := Ideal) i = 1 := by
  rw [val_main_v46_apply, val_main_cst_9_apply, Ideal.ofBits_def, Ideal.ofBits_one_f32]

/-- The first layer's divisor at node `n` is a real number that is not zero. -/
theorem den1_real (n : Fin 50000) : ∃ r : ℝ, r ≠ 0 ∧ val_main_v19 (F := Ideal) x1 (ix1 n) = (r : EReal) := by
  rw [val_main_v19_apply, Ideal.maximumf_def, val_main_v17_eq]
  exact max_count_real Gen.scatter_S50000_S800000x1_S800000_n_0_0_1_wf _ _ _ _
    val_main_v15_zero val_main_v14_one val_main_v18_one n

/-- The second layer's divisor at node `n` is a real number that is not zero. -/
theorem den2_real (n : Fin 50000) : ∃ r : ℝ, r ≠ 0 ∧ val_main_v47 (F := Ideal) x1 (ix1 n) = (r : EReal) := by
  rw [val_main_v47_apply, Ideal.maximumf_def, val_main_v45_eq]
  exact max_count_real Gen.scatter_S50000_S800000x1_S800000_n_0_0_1_wf _ _ _ _
    val_main_v43_zero val_main_v42_one val_main_v46_one n

end Cert.ReferenceIdeal.Hand

end
-- ==== Proof.RefRead.lean ====
/-
  The reference's hidden layer and result, read at one element.

  Both layers are `(mean aggregate) · Wl^T + (own features) · Wr^T + bias` (the first followed by `max(·, 0)`), where
  the mean aggregate of node `n` is the segment sum `S(n, ·)` divided by the divisor `max(count n, 1)`. Reading every
  pointwise operation, broadcast, transpose and contraction at the element `(n, j)` leaves the two segment sums and the
  two divisors as they are and gives each layer as two sums over the 128 input features. The weights are stored
  `[output feature, input feature]` and transposed by the program, so the factor read is the weight at `(j, k)`.
-/
import proofs.«134495_j38250978738252_1_alg».proof.Proof.Gen.ReferenceIdeal.Read

noncomputable section

open scoped BigOperators

namespace Cert.ReferenceIdeal.Hand

open Cert.ReferenceIdeal Cert.ReferenceIdeal.Read Idealize.ShloMosaic Idealize.ShloMosaic.ValueIdx

/-! ## The composed index maps at `(n, j)` -/

/-- Layer 1, aggregate product: the left operand is read at `(n, k)`. -/
theorem lidx24_eq (n : Fin 50000) (j k : Fin 128) : lidx_main_v24 (ix2 n j) k = ix2 n k :=
  funext fun a => Fin.ext (by match a with | ⟨0, _⟩ => rfl | ⟨1, _⟩ => rfl)

/-- Layer 1: the divisor broadcast along the features is read at node `n`. -/
theorem idx20_21_eq (n : Fin 50000) (k : Fin 128) : idx_main_v20 (idx_main_v21 (ix2 n k)) = ix1 n :=
  funext fun a => Fin.ext (by match a with | ⟨0, _⟩ => rfl)

/-- Layer 1, aggregate product: the transposed weight is read at `(j, k)`. -/
theorem idx23_ridx24_eq (n : Fin 50000) (j k : Fin 128) : idx_main_v23 (ridx_main_v24 (ix2 n j) k) = ix2 j k :=
  funext fun a => Fin.ext (by match a with | ⟨0, _⟩ => rfl | ⟨1, _⟩ => rfl)

/-- Layer 1, own-feature product: the left operand is read at `(n, k)`. -/
theorem lidx26_eq (n : Fin 50000) (j k : Fin 128) : lidx_main_v26 (ix2 n j) k = ix2 n k :=
  funext fun a => Fin.ext (by match a with | ⟨0, _⟩ => rfl | ⟨1, _⟩ => rfl)

/-- Layer 1, own-feature product: the transposed weight is read at `(j, k)`. -/
theorem idx25_ridx26_eq (n : Fin 50000) (j k : Fin 128) : idx_main_v25 (ridx_main_v26 (ix2 n j) k) = ix2 j k :=
  funext fun a => Fin.ext (by match a with | ⟨0, _⟩ => rfl | ⟨1, _⟩ => rfl)

/-- Layer 1: the bias broadcast along the nodes is read at feature `j`. -/
theorem idx28_29_eq (n : Fin 50000) (j : Fin 128) : idx_main_v28 (idx_main_v29 (ix2 n j)) = ix1 j :=
  funext fun a => Fin.ext (by match a with | ⟨0, _⟩ => rfl)

/-- Layer 2, aggregate product: the left operand is read at `(n, k)`. -/
theorem lidx52_eq (n : Fin 50000) (j : Fin 2) (k : Fin 128) : lidx_main_v52 (ix2 n j) k = ix2 n k :=
  funext fun a => Fin.ext (by match a with | ⟨0, _⟩ => rfl | ⟨1, _⟩ => rfl)

/-- Layer 2: the divisor broadcast along the features is read at node `n`. -/
theorem idx48_49_eq (n : Fin 50000) (k : Fin 128) : idx_main_v48 (idx_main_v49 (ix2 n k)) = ix1 n :=
  funext fun a => Fin.ext (by match a with | ⟨0, _⟩ => rfl)

/-- Layer 2, aggregate product: the transposed weight is read at `(j, k)`. -/
theorem idx51_ridx52_eq (n : Fin 50000) (j : Fin 2) (k : Fin 128) :
    idx_main_v51 (ridx_main_v52 (ix2 n j) k) = ix2 j k :=
  funext fun a => Fin.ext (by match a with | ⟨0, _⟩ => rfl | ⟨1, _⟩ => rfl)

/-- Layer 2, hidden-feature product: the left operand is read at `(n, k)`. -/
theorem lidx54_eq (n : Fin 50000) (j : Fin 2) (k : Fin 128) : lidx_main_v54 (ix2 n j) k = ix2 n k :=
  funext fun a => Fin.ext (by match a with | ⟨0, _⟩ => rfl | ⟨1, _⟩ => rfl)

/-- Layer 2, hidden-feature product: the transposed weight is read at `(j, k)`. -/
theorem idx53_ridx54_eq (n : Fin 50000) (j : Fin 2) (k : Fin 128) :
    idx_main_v53 (ridx_main_v54 (ix2 n j) k) = ix2 j k :=
  funext fun a => Fin.ext (by match a with | ⟨0, _⟩ => rfl | ⟨1, _⟩ => rfl)

/-- Layer 2: the bias broadcast along the nodes is read at output `j`. -/
theorem idx56_57_eq (n : Fin 50000) (j : Fin 2) : idx_main_v56 (idx_main_v57 (ix2 n j)) = ix1 j :=
  funext fun a => Fin.ext (by match a with | ⟨0, _⟩ => rfl)

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S128, .f32⟩ : BufTy).Contents (Elt Ideal))
  (x5 x6 : (⟨S2x128, .f32⟩ : BufTy).Contents (Elt Ideal)) (x7 : (⟨S2, .f32⟩ : BufTy).Contents (Elt Ideal))

/-- Layer 1, one term of the aggregate product at `(n, j)`: the mean aggregate at `(n, k)` times the weight at `(j, k)`. -/
theorem agg1_term (n : Fin 50000) (j k : Fin 128) :
    val_main_v22 (F := Ideal) x0 x1 (lidx_main_v24 (ix2 n j) k) * val_main_v23 (F := Ideal) x2 (ridx_main_v24 (ix2 n j) k)
      = Ideal.div (val_main_v13 (F := Ideal) x0 x1 (ix2 n k)) (val_main_v19 (F := Ideal) x1 (ix1 n)) * x2 (ix2 j k) := by
  rw [lidx24_eq, val_main_v22_apply, val_main_v21_apply, val_main_v20_apply, idx20_21_eq, val_main_v23_apply,
    idx23_ridx24_eq, Ideal.hostDivf_def]

/-- Layer 1, one term of the own-feature product at `(n, j)`. -/
theorem own1_term (n : Fin 50000) (j k : Fin 128) :
    x0 (lidx_main_v26 (ix2 n j) k) * val_main_v25 (F := Ideal) x3 (ridx_main_v26 (ix2 n j) k)
      = x0 (ix2 n k) * x3 (ix2 j k) := by
  rw [lidx26_eq, val_main_v25_apply, idx25_ridx26_eq]

/-- THE HIDDEN LAYER AT `(n, j)`: `max ((∑ k, S(n,k) / den n · W1l(j,k) + ∑ k, x(n,k) · W1r(j,k)) + b1 j, 0)`. -/
theorem h_apply (n : Fin 50000) (j : Fin 128) :
    val_main_v31 (F := Ideal) x0 x1 x2 x3 x4 (ix2 n j)
      = max ((∑ k : Fin 128, Ideal.div (val_main_v13 (F := Ideal) x0 x1 (ix2 n k)) (val_main_v19 (F := Ideal) x1 (ix1 n)) * x2 (ix2 j k)
              + ∑ k : Fin 128, x0 (ix2 n k) * x3 (ix2 j k)) + x4 (ix1 j)) (Ideal.ofBits .f32 0x00000000#32) := by
  rw [val_main_v31_apply, val_main_v30_apply, val_main_v27_apply, val_main_v24_apply, val_main_v26_apply,
    val_main_v29_apply, val_main_v28_apply, idx28_29_eq, val_main_call0_v0_apply, val_main_call0_cst_apply,
    Ideal.maximumf_def, Ideal.addf_def, Ideal.addf_def, Ideal.ofBits_def,
    Finset.sum_congr rfl (fun k _ => agg1_term x0 x1 x2 n j k), Finset.sum_congr rfl (fun k _ => own1_term x0 x3 n j k)]

/-- Layer 2, one term of the aggregate product at `(n, j)`. -/
theorem agg2_term (n : Fin 50000) (j : Fin 2) (k : Fin 128) :
    val_main_v50 (F := Ideal) x0 x1 x2 x3 x4 (lidx_main_v52 (ix2 n j) k) * val_main_v51 (F := Ideal) x5 (ridx_main_v52 (ix2 n j) k)
      = Ideal.div (val_main_v41 (F := Ideal) x0 x1 x2 x3 x4 (ix2 n k)) (val_main_v47 (F := Ideal) x1 (ix1 n)) * x5 (ix2 j k) := by
  rw [lidx52_eq, val_main_v50_apply, val_main_v49_apply, val_main_v48_apply, idx48_49_eq, val_main_v51_apply,
    idx51_ridx52_eq, Ideal.hostDivf_def]

/-- Layer 2, one term of the hidden-feature product at `(n, j)`. -/
theorem own2_term (n : Fin 50000) (j : Fin 2) (k : Fin 128) :
    val_main_v31 (F := Ideal) x0 x1 x2 x3 x4 (lidx_main_v54 (ix2 n j) k) * val_main_v53 (F := Ideal) x6 (ridx_main_v54 (ix2 n j) k)
      = val_main_v31 (F := Ideal) x0 x1 x2 x3 x4 (ix2 n k) * x6 (ix2 j k) := by
  rw [lidx54_eq, val_main_v53_apply, idx53_ridx54_eq]

/-- THE RESULT AT `(n, j)`: `(∑ k, S₂(n,k) / den n · W2l(j,k) + ∑ k, h(n,k) · W2r(j,k)) + b2 j`. -/
theorem out_apply (n : Fin 50000) (j : Fin 2) :
    val_main_v58 (F := Ideal) x0 x1 x2 x3 x4 x5 x6 x7 (ix2 n j)
      = (∑ k : Fin 128, Ideal.div (val_main_v41 (F := Ideal) x0 x1 x2 x3 x4 (ix2 n k)) (val_main_v47 (F := Ideal) x1 (ix1 n)) * x5 (ix2 j k)
          + ∑ k : Fin 128, val_main_v31 (F := Ideal) x0 x1 x2 x3 x4 (ix2 n k) * x6 (ix2 j k)) + x7 (ix1 j) := by
  rw [val_main_v58_apply, val_main_v55_apply, val_main_v52_apply, val_main_v54_apply,
    val_main_v57_apply, val_main_v56_apply, idx56_57_eq, Ideal.addf_def, Ideal.addf_def,
    Finset.sum_congr rfl (fun k _ => agg2_term x0 x1 x2 x3 x4 x5 n j k),
    Finset.sum_congr rfl (fun k _ => own2_term x0 x1 x2 x3 x4 x6 n j k)]

end Cert.ReferenceIdeal.Hand

end
-- ==== Proof.Bridge.lean ====
/-
  The kernel program's mean aggregation against the reference's, entry by entry.

  Both programs gather the source rows along the edges and add them up by destination with the same host operations,
  and both count the edges into a node the same way; they differ in how they divide. The kernel multiplies the summed
  row by 1 / max(count, 1), the reference divides it by max(count, 1). The count is a finite sum of ones, so
  max(count, 1) is a real number r ≥ 1, and for a nonzero real r the quotient a / r on the extended reals IS the product
  a · (1 / r), whatever a is: the two agree at every entry, with no assumption on the features.
-/
import proofs.«134495_j38250978738252_1_alg».proof.Proof.KernelRead
import proofs.«134495_j38250978738252_1_alg».proof.Proof.KernelValue
import proofs.«134495_j38250978738252_1_alg».proof.Proof.RefDen
import proofs.«134495_j38250978738252_1_alg».proof.Proof.RefRead
import proofs.«134495_j38250978738252_1_alg».proof.Proof.Gen.ReferenceIdeal.Read

noncomputable section

open scoped BigOperators

namespace Cert.Bridge

open Cert.KernelIdeal.Host Cert.KernelIdeal.Whole Cert.ReferenceIdeal.Read
open Idealize.ShloMosaic Idealize.ShloMosaic.ValueIdx

/-- The single-precision word for 1.0 denotes the real number 1. -/
theorem one_word : Ideal.ofBits .f32 0x3F800000#32 = ((1 : ℝ) : EReal) := by
  simp [Ideal.ofBits, Ideal.ieee, -EReal.coe_mul]; norm_num

/-- For a nonzero real r, multiplying by the quotient 1 / r is dividing by r, at every extended real. -/
theorem mul_recip (a : EReal) {r : ℝ} (hr : r ≠ 0) :
    a * Ideal.div ((1 : ℝ) : EReal) (r : EReal) = Ideal.div a (r : EReal) := by
  rw [Ideal.div_coe hr, Ideal.div_coe hr, EReal.coe_one, one_mul]

variable (x0 : (⟨Cert.KernelIdeal.S50000x128, .f32⟩ : BufTy).Contents (Elt Ideal))
  (x1 : (⟨Cert.KernelIdeal.S2x800000, .i32⟩ : BufTy).Contents (Elt Ideal))
  (x2 x3 : (⟨Cert.KernelIdeal.S128x128, .f32⟩ : BufTy).Contents (Elt Ideal))
  (x4 : (⟨Cert.KernelIdeal.S128, .f32⟩ : BufTy).Contents (Elt Ideal))

/-- The first layer's summed rows: the same gather and additive scatter in both programs. -/
theorem agg1_eq : aggSum (F := Ideal) x0 (edgeSrc x1) (edgeDst x1) = val_main_v13 (F := Ideal) x0 x1 := rfl

/-- The second layer's summed rows, of the same hidden array: again the same operations. -/
theorem agg2_eq : aggSum (F := Ideal) (val_main_v31 (F := Ideal) x0 x1 x2 x3 x4) (edgeSrc x1) (edgeDst x1)
    = val_main_v41 (F := Ideal) x0 x1 x2 x3 x4 := rfl

/-- "The count, at least one": the same vector in both programs. -/
theorem den_eq : val_main_v19 (F := Ideal) x1
    = maximumf (F := Ideal) (s := Cert.KernelIdeal.S50000) (φ := .f32) (count (F := Ideal) (edgeDst x1)) (onesN (F := Ideal)) := rfl

/-- The reference computes it a second time for the second layer: the same vector again. -/
theorem den2_eq : val_main_v47 (F := Ideal) x1 = val_main_v19 (F := Ideal) x1 := rfl

/-- The kernel's mean aggregation of any array y, at (n, k): the summed row's entry divided by "the count, at least one". -/
theorem meanAgg_apply (y : (⟨Cert.KernelIdeal.S50000x128, .f32⟩ : BufTy).Contents (Elt Ideal)) (n : Fin 50000) (k : Fin 128) :
    meanAgg y x1 (ix2 n k)
      = Ideal.div (aggSum (F := Ideal) y (edgeSrc x1) (edgeDst x1) (ix2 n k)) (val_main_v19 (F := Ideal) x1 (ix1 n)) := by
  unfold meanAgg
  generalize aggSum (F := Ideal) y (edgeSrc x1) (edgeDst x1) = A
  rw [mulf_apply, scale_invDen_apply]
  obtain ⟨r, hr, e⟩ := Cert.ReferenceIdeal.Hand.den1_real x1 n
  have e' : max (count (F := Ideal) (edgeDst x1) (ix1 n)) (Ideal.ofBits .f32 0x3F800000#32) = (r : EReal) := by
    rw [← e, den_eq x1, maximumf_apply, onesN_apply]
  rw [e', e, one_word, mul_recip _ hr]

variable (x5 x6 : (⟨Cert.KernelIdeal.S2x128, .f32⟩ : BufTy).Contents (Elt Ideal))
  (x7 : (⟨Cert.KernelIdeal.S2, .f32⟩ : BufTy).Contents (Elt Ideal))

/-- The first layer: the kernel's grid result is the reference's hidden array. At (n, j) both are
    max((∑ k (S(n,k) / den n) · W1l(j,k) + ∑ k x(n,k) · W1r(j,k)) + b1(j), 0): the kernel's transposed weights read
    back at (j, k), its scaled row by the law above. -/
theorem hidden_eq : Cert.KernelIdeal.Whole.hidden x0 x1 x2 x3 x4 = val_main_v31 (F := Ideal) x0 x1 x2 x3 x4 := by
  funext i
  obtain ⟨n, j, rfl⟩ : ∃ (n : Fin 50000) (j : Fin 128), i = ix2 n j := ⟨i 0, i 1, eq_ix2 i⟩
  unfold Cert.KernelIdeal.Whole.hidden
  rw [Cert.Sage.linRelu_apply, Cert.ReferenceIdeal.Hand.h_apply]
  unfold Cert.Sage.linAt
  have s1 : ∑ k : Fin 128, meanAgg x0 x1 (ix2 n k) * tr128 (F := Ideal) x2 (ix2 k j)
      = ∑ k : Fin 128, Ideal.div (val_main_v13 (F := Ideal) x0 x1 (ix2 n k)) (val_main_v19 (F := Ideal) x1 (ix1 n)) * x2 (ix2 j k) :=
    Finset.sum_congr rfl fun k _ => by rw [meanAgg_apply, tr128_apply, agg1_eq]
  have s2 : ∑ k : Fin 128, x0 (ix2 n k) * tr128 (F := Ideal) x3 (ix2 k j) = ∑ k : Fin 128, x0 (ix2 n k) * x3 (ix2 j k) :=
    Finset.sum_congr rfl fun k _ => by rw [tr128_apply]
  rw [s1, s2]

/-- The second layer and the result: the first two columns of the kernel's padded result are the reference's result.
    At (n, j), j < 2, the padded weights read back as W2l(j,k), W2r(j,k) and the padded bias as b2(j); the hidden array
    is the reference's, so its summed rows are too. -/
theorem result_eq_ref : result x0 x1 x2 x3 x4 x5 x6 x7 = val_main_v58 (F := Ideal) x0 x1 x2 x3 x4 x5 x6 x7 := by
  funext i
  obtain ⟨n, j, rfl⟩ : ∃ (n : Fin 50000) (j : Fin 2), i = ix2 n j := ⟨i 0, i 1, eq_ix2 i⟩
  unfold result
  rw [firstTwo_apply]
  unfold outPadded
  rw [Cert.Sage.lin_apply, Cert.ReferenceIdeal.Hand.out_apply, hidden_eq]
  unfold Cert.Sage.linAt
  have s1 : ∑ k : Fin 128, meanAgg (val_main_v31 (F := Ideal) x0 x1 x2 x3 x4) x1 (ix2 n k)
        * padW (F := Ideal) x5 (ix2 k (⟨j.val, by omega⟩ : Fin 128))
      = ∑ k : Fin 128, Ideal.div (val_main_v41 (F := Ideal) x0 x1 x2 x3 x4 (ix2 n k)) (val_main_v47 (F := Ideal) x1 (ix1 n)) * x5 (ix2 j k) :=
    Finset.sum_congr rfl fun k _ => by rw [meanAgg_apply, padW_apply, agg2_eq, den2_eq]
  have s2 : ∑ k : Fin 128, val_main_v31 (F := Ideal) x0 x1 x2 x3 x4 (ix2 n k) * padW (F := Ideal) x6 (ix2 k (⟨j.val, by omega⟩ : Fin 128))
      = ∑ k : Fin 128, val_main_v31 (F := Ideal) x0 x1 x2 x3 x4 (ix2 n k) * x6 (ix2 j k) :=
    Finset.sum_congr rfl fun k _ => by rw [padW_apply]
  rw [s1, s2, padB_apply]

end Cert.Bridge

end
-- ==== Proof.lean ====
/-
  A two-layer mean-aggregation graph network on 50000 nodes and 800000 edges: the kernel program against its reference.

  Each layer takes, for every node, the sum over its incoming edges of the source node's feature row, divides it by the
  number of incoming edges (at least one), and returns (that mean · Wlᵀ + the node's own row · Wrᵀ) + bias; the first
  layer is followed by the rectifier, the second has two output features. The reference does all of this with host
  operations. The kernel program does the gathers, the additive scatters and the count with the same host operations,
  multiplies by the reciprocal of the divisor instead of dividing, and runs each layer's two matrix products, bias and
  rectifier on a grid of ten row blocks of 5000 nodes; for the second layer it pads the weights and bias with 126 more
  output features and keeps the first two columns of the result.

  At the ideal values the two programs return the same array, entry by entry: a grid's result array is one function of
  the arrays its blocks are cut from (each entry a sum over the 128 features, whichever block it sits in); the divisor
  max(count, 1) is a real number ≥ 1, because the count is a finite sum of ones, and dividing an extended real by a nonzero
  real r is multiplying it by 1 / r; the padded columns never reach the first two columns of a product; and the
  transposes only rename the index the sums run over. No step needs the features to be finite.

  The three frame claims are the generated frames (the reference's, its generated run with the result dropped); no
  operation was rewritten by the idealization, so its claim is trivial.
-/
import proofs.«134495_j38250978738252_1_alg».proof.Defs
import proofs.«134495_j38250978738252_1_alg».proof.Proof.Assemble
import proofs.«134495_j38250978738252_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.SageClaims.frame_k, Cert.Proof.SageClaims.frame_ki, Cert.Proof.SageClaims.frame_ri,
    Cert.Proof.SageClaims.preserves,
    Cert.Proof.SageClaims.algebraic fun x0 x1 x2 x3 x4 x5 x6 x7 => Cert.Bridge.result_eq_ref x0 x1 x2 x3 x4 x5 x6 x7⟩

end Cert.Proof

end
